-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S8x4096x1024 : Shape := ⟨3, ![8, 4096, 1024]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x512x1024 .f32) (main_arg1 : FVec F S8x4096x1024 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  main_v8
-- ==== Kernel.lean ====
abbrev S8x512x1024 : Shape := ⟨3, ![8, 512, 1024]⟩
abbrev S8x4096x1024 : Shape := ⟨3, ![8, 4096, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x512x1024, .f32⟩
  | .hbm, ⟨1, _⟩ => ⟨S8x4096x1024, .f32⟩
  | .hbm, ⟨2, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  reduces_S512x512_S512 : S512x512.Reduces [1] S512
  broadcasts_S512x1_S512x512 : S512x1.Broadcasts S512x512
  shapeCasts_S512x1024_S1x512x1024 : S512x1024.ShapeCasts S1x512x1024
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x512x1024.size a
  hwx0_0 : ∀ i : grid0.Coords, EltTy.bits .f32 = 32 ∨ (Rect.block (s := S8x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x1024 : Shape := ⟨3, ![8, 512, 1024]⟩
abbrev S8x4096x1024 : Shape := ⟨3, ![8, 4096, 1024]⟩
abbrev S_ : Shape := ⟨0, ![]⟩
abbrev S8x512 : Shape := ⟨2, ![8, 512]⟩
abbrev S8x512x1 : Shape := ⟨3, ![8, 512, 1]⟩
abbrev S8x4096 : Shape := ⟨2, ![8, 4096]⟩
abbrev S8x4096x1 : Shape := ⟨3, ![8, 4096, 1]⟩
abbrev S8x4096x512 : Shape := ⟨3, ![8, 4096, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x4096x1024, .f32⟩
  | .hbm, ⟨2, _⟩ => ⟨S8x512x1024, .f32⟩
  | .hbm, ⟨3, _⟩ => ⟨S_, .f32⟩
  | .hbm, ⟨4, _⟩ => ⟨S8x512, .f32⟩
  | .hbm, ⟨5, _⟩ => ⟨S8x512x1, .f32⟩
  | .hbm, ⟨6, _⟩ => ⟨S8x512x1, .f32⟩
  | .hbm, ⟨7, _⟩ => ⟨S_, .f32⟩
  | .hbm, ⟨8, _⟩ => ⟨S8x512x1, .f32⟩
  | .hbm, ⟨9, _⟩ => ⟨S8x512x1, .f32⟩
  | .hbm, ⟨10, _⟩ => ⟨S8x512x1024, .f32⟩
  | .hbm, ⟨11, _⟩ => ⟨S8x512x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S8x4096x512, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096x1, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x512, .f32⟩
  | .hbm, ⟨36, _⟩ => ⟨S8x4096x512, .f32⟩
  | .hbm, ⟨37, _⟩ => ⟨S8x4096x1024, .f32⟩
  | .hbm, ⟨38, _⟩ => ⟨S8x4096x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  reducesTo_S8x512x1024_S8x512_d2 : S8x512x1024.ReducesTo [2] S8x512
  h_S_ : 0 < S_.numel
  bcast_S8x512_S8x512x1_0_1 : S8x512.BroadcastsInDim S8x512x1 (![0, 1] : Fin 2 → Fin S8x512x1.rank)
  bcast_S_S8x512x1 : S_.BroadcastsInDim S8x512x1 (![] : Fin 0 → Fin S8x512x1.rank)
  bcast_S8x512x1_S8x512x1024_0_1_2 : S8x512x1.BroadcastsInDim S8x512x1024 (![0, 1, 2] : Fin 3 → Fin S8x512x1024.rank)
  reducesTo_S8x4096x1024_S8x4096_d2 : S8x4096x1024.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  reducesTo_S8x4096x512_S8x4096_d2 : S8x4096x512.ReducesTo [2] S8x4096
  bcast_S_S8x4096 : S_.BroadcastsInDim S8x4096 (![] : Fin 0 → Fin S8x4096.rank)
  bcast_S8x4096x1_S8x4096x512_0_1_2 : S8x4096x1.BroadcastsInDim S8x4096x512 (![0, 1, 2] : Fin 3 → Fin S8x4096x512.rank)
  dot_S8x4096x1024_S8x512x1024_S8x4096x512_2_2_1_1_0_0_wf : DotDims.WF S8x4096x1024 S8x512x1024 S8x4096x512 [2] [2] [1] [1] [0] [0]
  dot_S8x4096x512_S8x512x1024_S8x4096x1024_2_1_1_2_0_0_wf : DotDims.WF S8x4096x512 S8x512x1024 S8x4096x1024 [2] [1] [1] [2] [0] [0]

variable [Facts₀]

def dot_S8x4096x1024_S8x512x1024_S8x4096x512_2_2_1_1_0_0 : DotDims S8x4096x1024 S8x512x1024 S8x4096x512 where
  lhsContracting := [2]
  rhsContracting := [2]
  lhsNonContracting := [1]
  rhsNonContracting := [1]
  lhsBatch := [0]
  rhsBatch := [0]
  wf := dot_S8x4096x1024_S8x512x1024_S8x4096x512_2_2_1_1_0_0_wf
def dot_S8x4096x512_S8x512x1024_S8x4096x1024_2_1_1_2_0_0 : DotDims S8x4096x512 S8x512x1024 S8x4096x1024 where
  lhsContracting := [2]
  rhsContracting := [1]
  lhsNonContracting := [1]
  rhsNonContracting := [2]
  lhsBatch := [0]
  rhsBatch := [0]
  wf := dot_S8x4096x512_S8x512x1024_S8x4096x1024_2_1_1_2_0_0_wf

class Facts : Prop extends Facts₀ where

variable [Facts]
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibLogSoftmax.lean ====
/-
  The row-wise log-softmax `z − max z − log ∑ exp (z − max z)` of an `[M, C]` array, in its two spellings, read as ONE
  index-by-index function over the extended reals.

  * In a kernel: a lane `multi_reduction <maximumf>` from −∞, the result cast to a column and broadcast back, a
    subtraction, `exp`, a lane `multi_reduction <add>`, `log` of the column, a second subtraction.
  * On the host: a `reduce` with a `maximum` body from −∞ (and one more `maximum` with a splat −∞, which changes
    nothing), the column forms by `broadcast_in_dim`, a `reduce` with an `add` body from zero.

  Both read, at `(p, q)`, `(z (p, q) − μ) − log ∑ⱼ exp (z (p, j) − μ)` with `μ` the fold of `max` from −∞ over row `p`.
  The only laws used: `max (−∞) y = y` and `0 + s = s`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«155963_j88682484727827_1_alg».proof.Proof.LibKeepdims

noncomputable section

namespace Cert.Lib

open Idealize.ShloMosaic Idealize.ShloMosaic.ValueIdx

variable {M C : Nat}

/-- The maximum of row `r`, taken from −∞. -/
def rowMax (z : (⟨2, ![M, C]⟩ : Shape).Idx → EReal) (r : Fin M) : EReal :=
  (Finset.univ : Finset (Fin C)).fold max (Ideal.ofBits .f32 0xFF800000#32) (fun j => z (ix2 r j))

/-- Each entry less its row's maximum. -/
def shifted (z : (⟨2, ![M, C]⟩ : Shape).Idx → EReal) : (⟨2, ![M, C]⟩ : Shape).Idx → EReal :=
  fun i => z i - rowMax z (i 0)

/-- The row-wise log-softmax: the shifted entry less the logarithm of the row's sum of exponentials. -/
def logSoftmax (z : (⟨2, ![M, C]⟩ : Shape).Idx → EReal) : (⟨2, ![M, C]⟩ : Shape).Idx → EReal :=
  fun i => shifted z i - Ideal.log (∑ j : Fin C, Ideal.exp (shifted z (ix2 (i 0) j)))

/-- Row `p` with lane `k` put back is the index `(p, k)`. -/
theorem lift_lane (h : (⟨2, ![M, C]⟩ : Shape).Reduces [(1 : Fin 2)] (⟨1, ![M]⟩ : Shape)) (p : Fin M)
    (k : Fin ((⟨2, ![M, C]⟩ : Shape).size 1)) : h.lift (ix1 p) k = ix2 p (⟨k.val, k.isLt⟩ : Fin C) := by
  funext c; apply Fin.ext
  fin_cases c <;> rfl

theorem max_negInf (y : EReal) : max (Ideal.ofBits .f32 0xFF800000#32) y = y := by
  simp [Ideal.ofBits, Ideal.ieee]

/-- The kernel's spelling. -/
theorem kernel_logSoftmax (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    subf (subf z (broadcastTo ⟨2, ![M, C]⟩ (shapeCast ⟨2, ![M, 1]⟩
            (multiReduction .maximumf [(1 : Fin 2)] ⟨1, ![M]⟩ z 0xFF800000#32 hr hφ hmax) hc) hb))
        (broadcastTo ⟨2, ![M, C]⟩ (log (shapeCast ⟨2, ![M, 1]⟩
            (multiReduction .add [(1 : Fin 2)] ⟨1, ![M]⟩
              (exp (subf z (broadcastTo ⟨2, ![M, C]⟩ (shapeCast ⟨2, ![M, 1]⟩
                (multiReduction .maximumf [(1 : Fin 2)] ⟨1, ![M]⟩ z 0xFF800000#32 hr hφ hmax) hc) hb)))
              0x00000000#32 hr hφ hadd) hc)) hb)
      = logSoftmax z := by
  have hmx : ∀ (p : Fin M) (q : Fin C), broadcastTo ⟨2, ![M, C]⟩ (shapeCast ⟨2, ![M, 1]⟩
      (multiReduction .maximumf [(1 : Fin 2)] ⟨1, ![M]⟩ z 0xFF800000#32 hr hφ hmax) hc) hb (ix2 p q) = rowMax z p := by
    intro p q
    rw [Cert.LibKeepdims.broadcastTo_a1_ab_apply _ hb p q, Cert.LibKeepdims.shapeCast_a_a1_apply _ hc p (0 : Fin 1),
      Ideal.multiReduction_maximumf_single z _ hr hφ hmax (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastTo ⟨2, ![M, C]⟩ (shapeCast ⟨2, ![M, 1]⟩
      (multiReduction .maximumf [(1 : Fin 2)] ⟨1, ![M]⟩ z 0xFF800000#32 hr hφ hmax) hc) hb) (ix2 p q) = shifted z (ix2 p q) := by
    intro p q
    show z (ix2 p q) - _ = z (ix2 p q) - rowMax z p
    rw [hmx p q]
  funext i
  obtain ⟨p, q, rfl⟩ : ∃ (p : Fin M) (q : Fin C), i = ix2 p q := ⟨i 0, i 1, eq_ix2 i⟩
  show subf z _ (ix2 p q) - broadcastTo ⟨2, ![M, C]⟩ _ hb (ix2 p q)
    = shifted z (ix2 p q) - Ideal.log (∑ j : Fin C, Ideal.exp (shifted z (ix2 p j)))
  rw [hsh p q, Cert.LibKeepdims.broadcastTo_a1_ab_apply _ hb p q]
  show shifted z (ix2 p q) - Ideal.log (shapeCast ⟨2, ![M, 1]⟩ _ hc (ix2 p (0 : Fin 1))) = _
  rw [Cert.LibKeepdims.shapeCast_a_a1_apply _ hc p (0 : Fin 1), Ideal.multiReduction_add_single _ _ hr hφ hadd (ix1 p)]
  refine congrArg (fun s => shifted z (ix2 p q) - Ideal.log s) (Finset.sum_congr rfl fun k _ => ?_)
  rw [lift_lane hr p k]
  exact congrArg Ideal.exp (hsh p k)

/-- The host's spelling. -/
theorem host_logSoftmax (z : FVec Ideal ⟨2, ![M, C]⟩ .f32)
    (h' : (⟨2, ![M, C]⟩ : Shape).ReducesTo [(1 : Fin 2)] (⟨1, ![M]⟩ : Shape))
    (hr : (⟨2, ![M, C]⟩ : Shape).Reduces [(1 : Fin 2)] (⟨1, ![M]⟩ : Shape)) (hu : 0 < (⟨0, ![]⟩ : Shape).numel)
    (b0 : (⟨0, ![]⟩ : Shape).BroadcastsInDim ⟨1, ![M]⟩ ![])
    (b1 : (⟨1, ![M]⟩ : Shape).BroadcastsInDim ⟨2, ![M, 1]⟩ ![0])
    (b2 : (⟨2, ![M, 1]⟩ : Shape).BroadcastsInDim ⟨2, ![M, C]⟩ ![0, 1]) :
    subf (subf z (broadcastInDim ⟨2, ![M, C]⟩ ![0, 1] b2 (broadcastInDim ⟨2, ![M, 1]⟩ ![0] b1
            (maximumf (broadcastInDim ⟨1, ![M]⟩ ![] b0 (constant (F := Ideal) ⟨0, ![]⟩ .f32 0xFF800000#32))
              (Host.reduce FloatOps.maximumf z (constant (F := Ideal) ⟨0, ![]⟩ .f32 0xFF800000#32) h' hu)))))
        (broadcastInDim ⟨2, ![M, C]⟩ ![0, 1] b2 (Host.log (broadcastInDim ⟨2, ![M, 1]⟩ ![0] b1
            (Host.reduceAdd (Host.exp (subf z (broadcastInDim ⟨2, ![M, C]⟩ ![0, 1] b2 (broadcastInDim ⟨2, ![M, 1]⟩ ![0] b1
              (maximumf (broadcastInDim ⟨1, ![M]⟩ ![] b0 (constant (F := Ideal) ⟨0, ![]⟩ .f32 0xFF800000#32))
                (Host.reduce FloatOps.maximumf z (constant (F := Ideal) ⟨0, ![]⟩ .f32 0xFF800000#32) h' hu))))))
              (constant (F := Ideal) ⟨0, ![]⟩ .f32 0x00000000#32) h' hu))))
      = logSoftmax z := by
  -- a column `[M, 1]` made from a vector `[M]` and broadcast over the lanes reads the vector at the row
  have hcol : ∀ (v : (⟨1, ![M]⟩ : Shape).Idx → EReal) (p : Fin M) (q : Fin C),
      broadcastInDim ⟨2, ![M, C]⟩ ![0, 1] b2 (broadcastInDim ⟨2, ![M, 1]⟩ ![0] b1 v) (ix2 p q) = v (ix1 p) := by
    intro v p q
    rw [broadcastInDim_apply ![0, 1] b2 _ (ix2 p q) (ix2 p (0 : Fin 1)) (fun a => by
      match a with
      | ⟨0, _⟩ =>
        show p.val = if M = 1 then 0 else p.val
        split
        · have := p.isLt; omega
        · rfl
      | ⟨1, _⟩ => rfl)]
    rw [broadcastInDim_apply ![0] b1 v (ix2 p (0 : Fin 1)) (ix1 p) (fun a => by
      match a with
      | ⟨0, _⟩ =>
        show p.val = if M = 1 then 0 else p.val
        split
        · have := p.isLt; omega
        · rfl)]
  have hmx : ∀ (p : Fin M), maximumf (broadcastInDim ⟨1, ![M]⟩ ![] b0 (constant (F := Ideal) ⟨0, ![]⟩ .f32 0xFF800000#32))
      (Host.reduce FloatOps.maximumf z (constant (F := Ideal) ⟨0, ![]⟩ .f32 0xFF800000#32) h' hu) (ix1 p) = rowMax z p := by
    intro p
    show max (broadcastInDim ⟨1, ![M]⟩ ![] b0 (constant (F := Ideal) ⟨0, ![]⟩ .f32 0xFF800000#32) (ix1 p))
      (Host.reduce FloatOps.maximumf z (constant (F := Ideal) ⟨0, ![]⟩ .f32 0xFF800000#32) h' hu (ix1 p)) = _
    rw [broadcastInDim_apply ![] b0 _ (ix1 p) ix0 (fun a => a.elim0)]
    show max (Ideal.ofBits .f32 0xFF800000#32) _ = _
    rw [max_negInf, Host.reduce_eq_fold_single FloatOps.maximumf z _ h' hr hu (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastInDim ⟨2, ![M, C]⟩ ![0, 1] b2 (broadcastInDim ⟨2, ![M, 1]⟩ ![0] b1
      (maximumf (broadcastInDim ⟨1, ![M]⟩ ![] b0 (constant (F := Ideal) ⟨0, ![]⟩ .f32 0xFF800000#32))
        (Host.reduce FloatOps.maximumf z (constant (F := Ideal) ⟨0, ![]⟩ .f32 0xFF800000#32) h' hu)))) (ix2 p q)
      = shifted z (ix2 p q) := by
    intro p q
    show z (ix2 p q) - _ = z (ix2 p q) - rowMax z p
    rw [hcol _ p q, hmx p]
  funext i
  obtain ⟨p, q, rfl⟩ : ∃ (p : Fin M) (q : Fin C), i = ix2 p q := ⟨i 0, i 1, eq_ix2 i⟩
  show subf z _ (ix2 p q) - _ = shifted z (ix2 p q) - Ideal.log (∑ j : Fin C, Ideal.exp (shifted z (ix2 p j)))
  rw [hsh p q]
  have hlog : ∀ (v : (⟨1, ![M]⟩ : Shape).Idx → EReal),
      broadcastInDim ⟨2, ![M, C]⟩ ![0, 1] b2 (Host.log (F := Ideal) (φ := .f32) (broadcastInDim ⟨2, ![M, 1]⟩ ![0] b1 v)) (ix2 p q)
        = Ideal.log (v (ix1 p)) := by
    intro v
    have e := hcol (fun j => Ideal.log (v j)) p q
    exact e
  rw [hlog]
  show shifted z (ix2 p q) - Ideal.log (Ideal.hostReduceAdd h' _ (Ideal.ofBits .f32 0x00000000#32) (ix1 p)) = _
  rw [Ideal.hostReduceAdd_single h' hr _ _ (ix1 p), Ideal.ofBits_zero_f32, zero_add]
  refine congrArg (fun s => shifted z (ix2 p q) - Ideal.log s) (Finset.sum_congr rfl fun k _ => ?_)
  rw [lift_lane hr p k]
  exact congrArg Ideal.exp (hsh p k)

end Cert.Lib

end
-- ==== Proof.LibUnitRows.lean ====
/-
  Rows scaled to unit Euclidean length, the length clamped from below (what `x / max (‖x‖₂, ε)` along the last axis
  computes), as ONE row-by-row function over the extended reals, and the kernel spelling of it for an `[M, C]` array:
  the squares summed along the lanes, the sums cast to a column, its square root clamped by a splat of the word `w`,
  the column broadcast back over the lanes, and the array divided by it.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«155963_j88682484727827_1_alg».proof.Proof.LibKeepdims
import proofs.«155963_j88682484727827_1_alg».proof.Proof.LibLogSoftmax

noncomputable section

namespace Cert.Lib

open Idealize.ShloMosaic Idealize.ShloMosaic.ValueIdx

variable {M C : Nat}

/-- The Euclidean length of a row, clamped from below by the value of the f32 word `w`. -/
def clampedNorm (w : BitVec 32) (x : Fin C → EReal) : EReal :=
  max (Ideal.sqrt (∑ k : Fin C, x k * x k)) (Ideal.ofBits .f32 w)

/-- A row divided by its clamped length. -/
def unitRow (w : BitVec 32) (x : Fin C → EReal) : Fin C → EReal :=
  fun h => Ideal.div (x h) (clampedNorm w x)

/-- The kernel's spelling, read at `(p, q)`: entry `q` of row `p` scaled to unit length. -/
theorem kernel_unitRows (w : BitVec 32) (z : FVec Ideal ⟨2, ![M, C]⟩ .f32)
    (hr : (⟨2, ![M, C]⟩ : Shape).Reduces [(1 : Fin 2)] (⟨1, ![M]⟩ : Shape)) (hφ : FKind.Formats .f32)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) :
    divf z (broadcastTo ⟨2, ![M, C]⟩ (maximumf (sqrt (shapeCast ⟨2, ![M, 1]⟩
        (multiReduction .add [(1 : Fin 2)] ⟨1, ![M]⟩ (mulf z z) 0x00000000#32 hr hφ hadd) hc))
        (broadcast ⟨2, ![M, 1]⟩ (Scalar.ofBits (F := Ideal) .f32 w))) hb) (ix2 p q)
      = unitRow w (fun k => z (ix2 p k)) q := by
  show Ideal.div (z (ix2 p q)) (broadcastTo ⟨2, ![M, C]⟩ _ hb (ix2 p q)) = _
  rw [Cert.LibKeepdims.broadcastTo_a1_ab_apply _ hb p q]
  show Ideal.div (z (ix2 p q)) (max (Ideal.sqrt (shapeCast ⟨2, ![M, 1]⟩ _ hc (ix2 p (0 : Fin 1)))) (Ideal.ofBits .f32 w)) = _
  rw [Cert.LibKeepdims.shapeCast_a_a1_apply _ hc p (0 : Fin 1), Ideal.multiReduction_add_single _ _ hr hφ hadd (ix1 p)]
  refine congrArg (fun s => Ideal.div (z (ix2 p q)) (max (Ideal.sqrt s) (Ideal.ofBits .f32 w))) (Finset.sum_congr rfl fun k _ => ?_)
  rw [lift_lane hr p k]
  rfl

end Cert.Lib

end
-- ==== Proof.LibRowSoftmax.lean ====
/-
  The softmax of a row, `exp (s q − μ) / ∑ⱼ exp (s j − μ)` with `μ` the row's maximum taken from −∞, as ONE function over
  the extended reals, and the kernel spelling of it along the lanes of an `[M, C]` array: a lane
  `multi_reduction <maximumf>` from −∞ (and one more `maximumf` with a splat −∞, which changes nothing), the result cast
  to a column and broadcast back, a subtraction, `exp`, a lane `multi_reduction <add>`, the column forms again, and a
  division.  The only law used is `max (−∞) y = y`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«155963_j88682484727827_1_alg».proof.Proof.LibKeepdims
import proofs.«155963_j88682484727827_1_alg».proof.Proof.LibLogSoftmax

noncomputable section

namespace Cert.Lib

open Idealize.ShloMosaic Idealize.ShloMosaic.ValueIdx

variable {M C : Nat}

/-- The maximum of a row, taken from −∞. -/
def rowTop (s : Fin C → EReal) : EReal :=
  (Finset.univ : Finset (Fin C)).fold max (Ideal.ofBits .f32 0xFF800000#32) s

/-- The softmax of a row: each entry's exponential, shifted by the row's maximum, over the sum of them all. -/
def softmaxRow (s : Fin C → EReal) : Fin C → EReal :=
  fun q => Ideal.div (Ideal.exp (s q - rowTop s)) (∑ j : Fin C, Ideal.exp (s j - rowTop s))

/-- An array divided by the column of its lane sums broadcast back, read at `(p, q)`: when row `p` of the array is the
    family `f`, the entry is `f q / ∑ⱼ f j`. -/
theorem kernel_rowOverSum (E : FVec Ideal ⟨2, ![M, C]⟩ .f32)
    (hr : (⟨2, ![M, C]⟩ : Shape).Reduces [(1 : Fin 2)] (⟨1, ![M]⟩ : Shape)) (hφ : FKind.Formats .f32)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) (f : Fin C → EReal) (hE : ∀ j : Fin C, E (ix2 p j) = f j) :
    divf E (broadcastTo ⟨2, ![M, C]⟩ (shapeCast ⟨2, ![M, 1]⟩
        (multiReduction .add [(1 : Fin 2)] ⟨1, ![M]⟩ E 0x00000000#32 hr hφ hadd) hc) hb) (ix2 p q)
      = Ideal.div (f q) (∑ j : Fin C, f j) := by
  show Ideal.div (E (ix2 p q)) (broadcastTo ⟨2, ![M, C]⟩ _ hb (ix2 p q)) = _
  rw [hE q, Cert.LibKeepdims.broadcastTo_a1_ab_apply _ hb p q, Cert.LibKeepdims.shapeCast_a_a1_apply _ hc p (0 : Fin 1),
    Ideal.multiReduction_add_single _ _ hr hφ hadd (ix1 p)]
  refine congrArg (fun s => Ideal.div (f q) s) (Finset.sum_congr rfl fun k _ => ?_)
  rw [lift_lane hr p k]
  exact hE ⟨k.val, k.isLt⟩

/-- The exponentials shifted by the row maximum, in the kernel's spelling, read at `(p, j)`. -/
theorem kernel_shiftedExp (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩)
    (p : Fin M) (j : Fin C) :
    exp (subf z (broadcastTo ⟨2, ![M, C]⟩ (shapeCast ⟨2, ![M, 1]⟩
        (maximumf (broadcast ⟨1, ![M]⟩ (Scalar.ofBits (F := Ideal) .f32 0xFF800000#32))
          (multiReduction .maximumf [(1 : Fin 2)] ⟨1, ![M]⟩ z 0xFF800000#32 hr hφ hmax)) hc) hb)) (ix2 p j)
      = Ideal.exp (z (ix2 p j) - rowTop (fun j => z (ix2 p j))) := by
  show Ideal.exp (z (ix2 p j) - broadcastTo ⟨2, ![M, C]⟩ _ hb (ix2 p j)) = _
  rw [Cert.LibKeepdims.broadcastTo_a1_ab_apply _ hb p j, Cert.LibKeepdims.shapeCast_a_a1_apply _ hc p (0 : Fin 1)]
  show Ideal.exp (z (ix2 p j) - max (Ideal.ofBits .f32 0xFF800000#32)
    (multiReduction .maximumf [(1 : Fin 2)] ⟨1, ![M]⟩ z 0xFF800000#32 hr hφ hmax (ix1 p))) = _
  rw [max_negInf, Ideal.multiReduction_maximumf_single z _ hr hφ hmax (ix1 p)]
  exact congrArg (fun f => Ideal.exp (z (ix2 p j) - (Finset.univ : Finset (Fin C)).fold max (Ideal.ofBits .f32 0xFF800000#32) f))
    (funext fun k => congrArg z (lift_lane hr p k))

/-- The kernel's spelling of the whole softmax, read at `(p, q)`: entry `q` of the softmax of row `p`. -/
theorem kernel_softmaxRows (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) :
    divf (exp (subf z (broadcastTo ⟨2, ![M, C]⟩ (shapeCast ⟨2, ![M, 1]⟩
            (maximumf (broadcast ⟨1, ![M]⟩ (Scalar.ofBits (F := Ideal) .f32 0xFF800000#32))
              (multiReduction .maximumf [(1 : Fin 2)] ⟨1, ![M]⟩ z 0xFF800000#32 hr hφ hmax)) hc) hb)))
        (broadcastTo ⟨2, ![M, C]⟩ (shapeCast ⟨2, ![M, 1]⟩
            (multiReduction .add [(1 : Fin 2)] ⟨1, ![M]⟩
              (exp (subf z (broadcastTo ⟨2, ![M, C]⟩ (shapeCast ⟨2, ![M, 1]⟩
                (maximumf (broadcast ⟨1, ![M]⟩ (Scalar.ofBits (F := Ideal) .f32 0xFF800000#32))
                  (multiReduction .maximumf [(1 : Fin 2)] ⟨1, ![M]⟩ z 0xFF800000#32 hr hφ hmax)) hc) hb)))
              0x00000000#32 hr hφ hadd) hc) hb) (ix2 p q)
      = softmaxRow (fun j => z (ix2 p j)) q :=
  kernel_rowOverSum _ hr hφ hadd hc hb p q (fun j => Ideal.exp (z (ix2 p j) - rowTop (fun j => z (ix2 p j))))
    (fun j => kernel_shiftedExp z hr hφ hmax hc hb p j)

end Cert.Lib

end
-- ==== Proof.CrossAttention.lean ====
/-
  Cosine-similarity cross attention with a residual, row by row over the extended reals.

  A document row `x` (of `H` features) attends to the `L` question rows `Y`: both are scaled to unit length (the length
  clamped from below by the f32 word of 1e-8), the scores are the dot products of the scaled document row with each
  scaled question row, the weights are the softmax of the scores, and the result is the weighted sum of the ORIGINAL
  question rows plus the document row itself.  The result for one document row depends on that row and on the question
  rows of its batch only; `attention` states it for the arrays of this certificate, index by index.
-/
import Idealize.ShloMosaic.PureOps.Ideal
import Idealize.ShloMosaic.Lib.ValueIdx
import proofs.«155963_j88682484727827_1_alg».proof.Proof.LibUnitRows
import proofs.«155963_j88682484727827_1_alg».proof.Proof.LibRowSoftmax

noncomputable section

namespace Cert.CrossAttention

open Idealize.ShloMosaic Idealize.ShloMosaic.ValueIdx Cert.Lib

/-- The f32 word of the clamp, 1e-8 as both programs spell it. -/
abbrev epsWord : BitVec 32 := 0x322BCC77#32

variable {H L : Nat}

/-- The cosine of the document row `x` with each question row `Y q`. -/
def scores (x : Fin H → EReal) (Y : Fin L → Fin H → EReal) : Fin L → EReal :=
  fun q => ∑ k : Fin H, unitRow epsWord x k * unitRow epsWord (Y q) k

/-- The softmax-weighted sum of the question rows, plus the document row. -/
def attend (x : Fin H → EReal) (Y : Fin L → Fin H → EReal) : Fin H → EReal :=
  fun h => (∑ q : Fin L, softmaxRow (scores x Y) q * Y q h) + x h

/-- The whole result: entry `(b, d, h)` is document row `(b, d)` attending to the question rows of batch `b`. -/
def attention (Q : (⟨3, ![8, 512, 1024]⟩ : Shape).Idx → EReal) (D : (⟨3, ![8, 4096, 1024]⟩ : Shape).Idx → EReal) :
    (⟨3, ![8, 4096, 1024]⟩ : Shape).Idx → EReal :=
  fun i => attend (fun k : Fin 1024 => D (ix3 (i 0) (i 1) k)) (fun (q : Fin 512) (k : Fin 1024) => Q (ix3 (i 0) q k)) (i 2)

end Cert.CrossAttention

end
-- ==== Proof.LibRowsDot.lean ====
/-
  A matrix product of rows with rows, read at an index.

  For the dimension numbers of an `[M, K] × [N, K] → [M, N]` product (axis 1 of both operands contracted, no batch axis:
  the right operand is used transposed), the contraction index is its one coordinate, and the operand indices at output
  index `(p, q)` and contraction coordinate `k` are `(p, k)` and `(q, k)`.  So at the extended reals both the host's
  `dot_general` and a `tpu.matmul` into a zero accumulator are `∑ k : Fin K, l (p, k) · r (q, k)`: entry `(p, q)` is the
  dot product of row `p` of the left operand with row `q` of the right one.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a rows-with-rows product, re-indexed by the contracted coordinate. -/
theorem rows_contr_sum {M K N : Nat} (l : (⟨2, ![M, K]⟩ : Shape).Idx → EReal) (r : (⟨2, ![N, K]⟩ : Shape).Idx → EReal)
    (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ k : Fin K, l (ix2 p k) * r (ix2 q k) := by
  rw [← Equiv.sum_comp (contrEquiv1 (DotDims.transposedRhs M K N) K rfl rfl).symm]
  refine Finset.sum_congr rfl fun k _ => ?_
  have hl : (DotDims.transposedRhs M K N).lhsIdx (ix2 p q) ((contrEquiv1 (DotDims.transposedRhs M K N) K rfl rfl).symm k)
      = ix2 p k := by
    funext a
    refine Fin.ext ?_
    match a with
    | ⟨0, _⟩ => rfl
    | ⟨1, _⟩ =>
      refine ((DotDims.transposedRhs M K N).lhsIdx_val_of_single (cl := (1 : Fin 2)) rfl (ix2 p q) _).trans ?_
      exact contrEquiv1_symm_val (DotDims.transposedRhs M K N) K rfl rfl k
  have hr : (DotDims.transposedRhs M K N).rhsIdx (ix2 p q) ((contrEquiv1 (DotDims.transposedRhs M K N) K rfl rfl).symm k)
      = ix2 q k := by
    funext a
    refine Fin.ext ?_
    match a with
    | ⟨0, _⟩ => rfl
    | ⟨1, _⟩ =>
      refine ((DotDims.transposedRhs M K N).rhsIdx_val_of_single (cr := (1 : Fin 2)) rfl (ix2 p q) _).trans ?_
      exact contrEquiv1_symm_val (DotDims.transposedRhs M K N) K rfl rfl k
  rw [hl, hr]

/-- The host's `dot_general` of rows with rows, at an index, over the extended reals. -/
theorem dotGeneral_rows_apply {M K N : Nat} {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (rows_contr_sum l r p q)

/-- A `tpu.matmul` of rows with rows into the zero accumulator, at an index, over the extended reals. -/
theorem matmul_rows_zero_apply {M K N : Nat} {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) :=
  (Ideal.matmul_constant_zero_apply (DotDims.transposedRhs M K N) prec l r (ix2 p q)).trans (rows_contr_sum l r p q)

end Cert.Lib

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.KernelBody.lean ====
/-
  The kernel body's arithmetic at an index.

  At one grid point the body holds the question block `q` (all 512 question rows of the batch) and a block `d` of 512
  document rows, both as `[512, 1024]` matrices.  It scales the rows of both to unit length, multiplies the scaled
  document rows with the scaled question rows (rows with rows: a `[512, 512]` matrix of cosines), takes the softmax
  along each row, multiplies the weights with the unscaled question block, and adds the document block.  So row `r` of
  what it stores is document row `r` attending to the question rows: `CrossAttention.attend`.
-/
import proofs.«155963_j88682484727827_1_alg».proof.Proof.Gen.KernelIdeal.Skeleton
import proofs.«155963_j88682484727827_1_alg».proof.Proof.CrossAttention
import proofs.«155963_j88682484727827_1_alg».proof.Proof.LibRowsDot
import proofs.«155963_j88682484727827_1_alg».proof.Proof.LibPlainDot
import Idealize.ShloMosaic.Lib.Pipeline.Value

noncomputable section

namespace Cert.KernelIdeal.Body

open Cert.KernelIdeal Cert.KernelIdeal.Gen Idealize.ShloMosaic Idealize.ShloMosaic.ValueIdx Cert.Lib Cert.CrossAttention

/-- The first product contracts the last axis of both operands: rows with rows. -/
theorem dotRows_eq : dot_S512x1024_S512x1024_S512x512_1_1_0_0_n_n = DotDims.transposedRhs 512 1024 512 := rfl

/-- The second product is an ordinary matrix product. -/
theorem dotPlain_eq : dot_S512x512_S512x1024_S512x1024_1_0_0_1_n_n = DotDims.plain 512 512 1024 := rfl

/-- The rows of a block scaled to unit length, as the body spells it. -/
def unitRows (z : FVec Ideal S512x1024 .f32) : FVec Ideal S512x1024 .f32 :=
  divf z (broadcastTo S512x1024 (maximumf (sqrt (shapeCast S512x1
      (multiReduction .add [1] S512 (mulf z z) 0x00000000#32 reduces_S512x1024_S512 (.inl rfl) rfl) shapeCasts_S512_S512x1))
    (broadcast S512x1 (Scalar.ofBits .f32 0x322BCC77#32))) broadcasts_S512x1_S512x1024)

/-- The cosines of the document rows with the question rows. -/
def scoreBlock (q d : FVec Ideal S512x1024 .f32) : FVec Ideal S512x512 .f32 :=
  matmul dot_S512x1024_S512x1024_S512x512_1_1_0_0_n_n none (truncf .bf16 (unitRows d) bitsLt_bf16_f32)
    (truncf .bf16 (unitRows q) bitsLt_bf16_f32) (constant S512x512 .f32 0x00000000#32)

/-- A score block less its row maxima, exponentiated. -/
def expBlock (s : FVec Ideal S512x512 .f32) : FVec Ideal S512x512 .f32 :=
  exp (subf s (broadcastTo S512x512 (shapeCast S512x1
    (maximumf (broadcast S512 (Scalar.ofBits .f32 0xFF800000#32))
      (multiReduction .maximumf [1] S512 s 0xFF800000#32 reduces_S512x512_S512 (.inl rfl) rfl)) shapeCasts_S512_S512x1)
    broadcasts_S512x1_S512x512))

/-- The softmax along the rows of a score block. -/
def weightBlock (s : FVec Ideal S512x512 .f32) : FVec Ideal S512x512 .f32 :=
  divf (expBlock s) (broadcastTo S512x512 (shapeCast S512x1
    (multiReduction .add [1] S512 (expBlock s) 0x00000000#32 reduces_S512x512_S512 (.inl rfl) rfl) shapeCasts_S512_S512x1)
    broadcasts_S512x1_S512x512)

/-- What the body stores, of the two blocks as matrices. -/
def outBlock (q d : FVec Ideal S512x1024 .f32) : FVec Ideal S512x1024 .f32 :=
  addf (matmul dot_S512x512_S512x1024_S512x1024_1_0_0_1_n_n none (truncf .bf16 (weightBlock (scoreBlock q d)) bitsLt_bf16_f32)
    (truncf .bf16 q bitsLt_bf16_f32) (constant S512x1024 .f32 0x00000000#32)) d

/-- The body's stored value is `outBlock` of its two loaded blocks with the leading unit axis cast away. -/
theorem pay2_eq (P0 P1 : Vec Ideal S1x512x1024 .f32) :
    k0_pay2 (F := Ideal) P0 P1 = outBlock (shapeCast S512x1024 P0 shapeCasts_S1x512x1024_S512x1024)
      (shapeCast S512x1024 P1 shapeCasts_S1x512x1024_S512x1024) := rfl

/-- A `[1, 512, 1024]` block viewed as a matrix reads `(a, k)` at `(0, a, k)`. -/
theorem block_apply (P : Vec Ideal S1x512x1024 .f32) (a : Fin 512) (k : Fin 1024) :
    shapeCast S512x1024 P shapeCasts_S1x512x1024_S512x1024 (ix2 a k) = P (ix3 (0 : Fin 1) a k) :=
  shapeCast_apply P _ (ix2 a k) (ix3 (0 : Fin 1) a k) (by
    rw [Shape.rowMajor_val_three, Shape.rowMajor_val_two]
    show (0 * 512 + a.val) * 1024 + k.val = a.val * 1024 + k.val
    omega)

theorem unitRows_apply (z : FVec Ideal S512x1024 .f32) (a : Fin 512) (k : Fin 1024) :
    unitRows z (ix2 a k) = unitRow epsWord (fun j => z (ix2 a j)) k :=
  kernel_unitRows epsWord z reduces_S512x1024_S512 (.inl rfl) rfl shapeCasts_S512_S512x1 broadcasts_S512x1_S512x1024 a k

theorem scoreBlock_apply (q d : FVec Ideal S512x1024 .f32) (r a : Fin 512) :
    scoreBlock q d (ix2 r a) = scores (fun k => d (ix2 r k)) (fun a k => q (ix2 a k)) a := by
  unfold scoreBlock scores
  rw [dotRows_eq]
  refine (matmul_rows_zero_apply none _ _ r a).trans ?_
  refine Finset.sum_congr rfl fun k _ => ?_
  show unitRows d (ix2 r k) * unitRows q (ix2 a k) = _
  rw [unitRows_apply, unitRows_apply]

theorem weightBlock_apply (s : FVec Ideal S512x512 .f32) (r a : Fin 512) :
    weightBlock s (ix2 r a) = softmaxRow (fun j => s (ix2 r j)) a :=
  kernel_softmaxRows s reduces_S512x512_S512 (.inl rfl) rfl rfl shapeCasts_S512_S512x1 broadcasts_S512x1_S512x512 r a

/-- Row `r` of what the body stores is document row `r` attending to the question rows. -/
theorem outBlock_apply (q d : FVec Ideal S512x1024 .f32) (r : Fin 512) (h : Fin 1024) :
    outBlock q d (ix2 r h) = attend (fun k => d (ix2 r k)) (fun a k => q (ix2 a k)) h := by
  unfold outBlock attend
  rw [dotPlain_eq]
  show FloatOps.matmul (DotDims.plain 512 512 1024) none _ _ _ (ix2 r h) + d (ix2 r h) = _
  refine congrArg (· + d (ix2 r h)) ?_
  refine (matmul_plain_zero_apply none _ _ r h).trans ?_
  refine Finset.sum_congr rfl fun a _ => ?_
  show weightBlock (scoreBlock q d) (ix2 r a) * q (ix2 a h) = _
  rw [weightBlock_apply]
  exact congrArg (fun s => softmaxRow s a * q (ix2 a h)) (funext fun j => scoreBlock_apply q d r j)

/-- The body's stored value at `(r, h)`, of the loaded blocks: document row `(0, r)` of the second block attending to
    the question rows `(0, ·)` of the first. -/
theorem pay2_apply (P0 P1 : Vec Ideal S1x512x1024 .f32) (r : Fin 512) (h : Fin 1024) :
    k0_pay2 (F := Ideal) P0 P1 (ix2 r h)
      = attend (fun k => P1 (ix3 (0 : Fin 1) r k)) (fun a k => P0 (ix3 (0 : Fin 1) a k)) h := by
  rw [pay2_eq, outBlock_apply]
  exact congrArg₂ (fun x Y => attend x Y h) (funext fun k => block_apply P1 r k)
    (funext fun a => funext fun k => block_apply P0 a k)

end Cert.KernelIdeal.Body

end
-- ==== Proof.KernelArray.lean ====
/-
  From blocks to the array: after the kernel's run the result array holds the attention of the two argument arrays.

  Grid point `(b, l)` stages the whole question block of batch `b`, the block of document rows `512·l … 512·l + 511` of
  batch `b`, and writes back the block of the same rows of the result.  What it writes is the body's value of the two
  staged blocks, which row by row is `CrossAttention.attend` (the body module); the staged rows ARE the rows of the
  argument arrays the result's index names, so the block written is the block of `CrossAttention.attention`.  The 64 blocks
  tile the result, so the whole array is that function.
-/
import proofs.«155963_j88682484727827_1_alg».proof.Proof.Gen.KernelIdeal.Value
import proofs.«155963_j88682484727827_1_alg».proof.Proof.KernelBody
import proofs.«155963_j88682484727827_1_alg».proof.Proof.CrossAttention
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Lib Cert.CrossAttention
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The index maps over the grid: the question window follows the result's batch coordinate and sits at the origin of the
    other two axes; the document window moves with the result's window on the first two axes. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (0 : Fin 3) ≤ 7 ∧ win0_2.index t (1 : Fin 3) ≤ 7 ∧ win0_2.index t (2 : Fin 3) = 0 :=
  (by decide +kernel : ∀ t : Fin grid0.N, _)

/-- Every (batch, row-block) pair is some point's. -/
theorem index_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- The body's value at `(r, h)`, for blocks `P0`, `P1` whose rows are the rows of the arrays `Q`, `D` that the array
    index `i` names. -/
theorem point_eq (Q : S8x512x1024.Idx → EReal) (D : S8x4096x1024.Idx → EReal) (P0 P1 : Vec Ideal S1x512x1024 .f32)
    (r : Fin 512) (h : Fin 1024) (i : S8x4096x1024.Idx)
    (h0 : ∀ (a : Fin 512) (k : Fin 1024), P0 (ix3 (0 : Fin 1) a k) = Q (ix3 (i 0 : Fin 8) a k))
    (h1 : ∀ (k : Fin 1024), P1 (ix3 (0 : Fin 1) r k) = D (ix3 (i 0 : Fin 8) (i 1 : Fin 4096) k))
    (h2 : h.val = (i 2).val) :
    k0_pay2 (F := Ideal) P0 P1 (ix2 r h) = attention Q D i := by
  have h2' : h = (i 2 : Fin 1024) := Fin.ext h2
  rw [Body.pay2_apply]
  unfold attention
  rw [h2']
  exact congrArg₂ (fun x Y => attend x Y (i 2 : Fin 1024)) (funext fun k => h1 k) (funext fun a => funext fun k => h0 a k)

/-- WHAT POINT `t` WRITES BACK is block `t` of the attention of the argument arrays. -/
theorem flushed_eq (c : Dev nD) (t : Fin cfg0.N) :
    (dats m 0 c).flushed 2 t
      = ((cfg0.win 2).blk t).view.read (Elt Ideal) (attention (V m c main_arg0) (V m c main_arg1)) := by
  rw [Value.flushed2]
  unfold out0_2
  obtain ⟨e0, e1, e2, e3, e4, e5, e6, e7, e8⟩ := index_facts t
  funext j
  have hj0 : (j 0).val < 1 := (j 0).isLt
  have hj1 : (j 1).val < 512 := (j 1).isLt
  have hj2 : (j 2).val < 1024 := (j 2).isLt
  refine (Value.canon2_eq (F := Ideal) (View.ld (iblk m c 0 t) r0_0) (View.ld (iblk m c 1 t) r0_0) j).trans ?_
  show k0_pay2 (View.ld (iblk m c 0 t) r0_0) (View.ld (iblk m c 1 t) r0_0) (Value.ix2_0 j)
    = attention (V m c main_arg0) (V m c main_arg1) (((cfg0.win 2).blk t).view.emb j)
  simp only [View.ld_unit_zero (S := S1x512x1024) zero_offsets]
  have hy : Value.ix2_0 j = ix2 (⟨(j 1).val, hj1⟩ : Fin 512) (⟨(j 2).val, hj2⟩ : Fin 1024) :=
    funext fun a => Fin.ext (by match a with | ⟨0, _⟩ => rfl | ⟨1, _⟩ => rfl)
  rw [hy]
  refine point_eq _ _ _ _ _ _ _ ?_ ?_ ?_
  · intro a k
    show V m c main_arg0 (((cfg0.win 0).blk t).view.emb (ix3 (0 : Fin 1) a k)) = _
    refine congrArg (V m c main_arg0) (funext fun ax => Fin.ext ?_)
    match ax with
    | ⟨0, _⟩ => show win0_0.index t (0 : Fin 3) * 1 + 1 * 0 = win0_2.index t (0 : Fin 3) * 1 + 1 * (j 0).val; omega
    | ⟨1, _⟩ => show win0_0.index t (1 : Fin 3) * 512 + 1 * a.val = a.val; omega
    | ⟨2, _⟩ => show win0_0.index t (2 : Fin 3) * 1024 + 1 * k.val = k.val; omega
  · intro k
    show V m c main_arg1 (((cfg0.win 1).blk t).view.emb (ix3 (0 : Fin 1) (⟨(j 1).val, hj1⟩ : Fin 512) k)) = _
    refine congrArg (V m c main_arg1) (funext fun ax => Fin.ext ?_)
    match ax with
    | ⟨0, _⟩ => show win0_1.index t (0 : Fin 3) * 1 + 1 * 0 = win0_2.index t (0 : Fin 3) * 1 + 1 * (j 0).val; omega
    | ⟨1, _⟩ => show win0_1.index t (1 : Fin 3) * 512 + 1 * (j 1).val = win0_2.index t (1 : Fin 3) * 512 + 1 * (j 1).val; omega
    | ⟨2, _⟩ => show win0_1.index t (2 : Fin 3) * 1024 + 1 * k.val = k.val; omega
  · show (j 2).val = win0_2.index t (2 : Fin 3) * 1024 + 1 * (j 2).val
    omega

/-- An index of the result is in point `t`'s block iff each coordinate is in the block's range on its axis. -/
theorem mem_blk (t : Fin cfg0.N) (i : S8x4096x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0).slice (win0_2.rect t)).set ↔ _
  rw [View.set_slice_whole, Rect.mem_set_unit]
  exact Iff.rfl

/-- The blocks tile the result: index `(b, d, h)` is in the block of the point with batch `b` and row block `d / 512`. -/
theorem cover (i : S8x4096x1024.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 1024 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- THE ARRAY after the run is the attention of the argument arrays. -/
theorem final (c : Dev nD) :
    (dats m 0 c).arrAt 2 cfg0.N = attention (m ((c : Thread nD τ).loc main_arg0)) (m ((c : Thread nD τ).loc main_arg1)) :=
  (dats m 0 c).arrAt_eq_of_cover 2 (attention (V m c main_arg0) (V m c main_arg1)) (fun t _ => flushed_eq m c t) cover

/-- The kernel's run with the result array named: the attention of the arguments, which end unchanged. -/
theorem run : θ_run defs (onTc (τ := τ) (main (F := Ideal))) ⟨m, fun _ => 0, ρ⟩ fun r => ∀ c : Dev nD,
      r.2.mem ((c : Thread nD τ).loc main_v0)
        = attention (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.Reference.lean ====
/-
  The reference's result at an index.

  The reference normalizes the rows of both inputs, takes the batched product of the normalized document rows with the
  normalized question rows, the softmax over the question axis, the batched product of the weights with the question
  rows, and adds the documents.  Read stage by stage at `(b, d, h)`, every stage involves document row `(b, d)` and the
  question rows of batch `b` only, and the result is `CrossAttention.attend` of them.
-/
import proofs.«155963_j88682484727827_1_alg».proof.Proof.Gen.ReferenceIdeal.Read
import proofs.«155963_j88682484727827_1_alg».proof.Proof.CrossAttention
import Idealize.ShloMosaic.PureOps.Reduce

noncomputable section

namespace Cert.ReferenceIdeal.Attn

open Cert.ReferenceIdeal Cert.ReferenceIdeal.Gen Cert.ReferenceIdeal.Read Idealize.ShloMosaic Idealize.ShloMosaic.ValueIdx
open Cert.Lib Cert.CrossAttention

variable (x0 : (⟨S8x512x1024, .f32⟩ : BufTy).Contents (Elt Ideal)) (x1 : (⟨S8x4096x1024, .f32⟩ : BufTy).Contents (Elt Ideal))

/-- The normalized questions: row `(b, q)` scaled to unit length. -/
theorem questions_unit (b : Fin 8) (q : Fin 512) (k : Fin 1024) :
    val_main_v7 (F := Ideal) x0 (ix3 b q k) = unitRow epsWord (fun j => x0 (ix3 b q j)) k := by
  have hidx : ∀ k' : Fin 1024, idx_main_v1 (idx_main_v2 (idx_main_v6 (ix3 b q k))) k' = ix3 b q k' := fun k' =>
    funext fun a => Fin.ext (by match a with | ⟨0, _⟩ => rfl | ⟨1, _⟩ => rfl | ⟨2, _⟩ => rfl)
  rw [val_main_v7_apply, val_main_v6_apply, val_main_v5_apply, val_main_v3_apply, val_main_v2_apply, val_main_v1_apply,
    val_main_v4_apply]
  simp only [hidx]
  show Ideal.div (x0 (ix3 b q k)) (max (Ideal.sqrt (Ideal.ofBits .f32 0x00000000#32 + ∑ k' : Fin 1024, x0 (ix3 b q k') * x0 (ix3 b q k')))
    (Ideal.ofBits .f32 0x322BCC77#32)) = _
  rw [Ideal.ofBits_zero_f32, zero_add]
  rfl

/-- The normalized documents: row `(b, d)` scaled to unit length. -/
theorem documents_unit (b : Fin 8) (d : Fin 4096) (k : Fin 1024) :
    val_main_v15 (F := Ideal) x1 (ix3 b d k) = unitRow epsWord (fun j => x1 (ix3 b d j)) k := by
  have hidx : ∀ k' : Fin 1024, idx_main_v9 (idx_main_v10 (idx_main_v14 (ix3 b d k))) k' = ix3 b d k' := fun k' =>
    funext fun a => Fin.ext (by match a with | ⟨0, _⟩ => rfl | ⟨1, _⟩ => rfl | ⟨2, _⟩ => rfl)
  rw [val_main_v15_apply, val_main_v14_apply, val_main_v13_apply, val_main_v11_apply, val_main_v10_apply, val_main_v9_apply,
    val_main_v12_apply]
  simp only [hidx]
  show Ideal.div (x1 (ix3 b d k)) (max (Ideal.sqrt (Ideal.ofBits .f32 0x00000000#32 + ∑ k' : Fin 1024, x1 (ix3 b d k') * x1 (ix3 b d k')))
    (Ideal.ofBits .f32 0x322BCC77#32)) = _
  rw [Ideal.ofBits_zero_f32, zero_add]
  rfl

/-- The scores: the cosine of document row `(b, d)` with question row `(b, q)`. -/
theorem scores_apply (b : Fin 8) (d : Fin 4096) (q : Fin 512) :
    val_main_v16 (F := Ideal) x0 x1 (ix3 b d q) = scores (fun k => x1 (ix3 b d k)) (fun q k => x0 (ix3 b q k)) q := by
  rw [val_main_v16_apply]
  unfold scores
  refine Finset.sum_congr rfl fun k _ => ?_
  have el : lidx_main_v16 (ix3 b d q) k = ix3 b d k :=
    funext fun a => Fin.ext (by match a with | ⟨0, _⟩ => rfl | ⟨1, _⟩ => rfl | ⟨2, _⟩ => rfl)
  have er : ridx_main_v16 (ix3 b d q) k = ix3 b q k :=
    funext fun a => Fin.ext (by match a with | ⟨0, _⟩ => rfl | ⟨1, _⟩ => rfl | ⟨2, _⟩ => rfl)
  rw [el, er, documents_unit, questions_unit]

/-- The row of scores of document row `(b, d)`. -/
abbrev scoreRow (b : Fin 8) (d : Fin 4096) : Fin 512 → EReal :=
  scores (fun k => x1 (ix3 b d k)) (fun q k => x0 (ix3 b q k))

/-- Document row `(b, d)` with question `k` put back is the index `(b, d, k)`. -/
theorem lift_question (hr : S8x4096x512.Reduces [(2 : Fin 3)] S8x4096) (b : Fin 8) (d : Fin 4096)
    (k : Fin (S8x4096x512.size 2)) : hr.lift (ix2 b d) k = ix3 b d (⟨k.val, k.isLt⟩ : Fin 512) := by
  funext c; apply Fin.ext
  fin_cases c <;> rfl

/-- The row maximum, taken from −∞ (the further maximum with a splat −∞ changes nothing). -/
theorem top_apply (b : Fin 8) (d : Fin 4096) :
    val_main_v19 (F := Ideal) x0 x1 (ix2 b d) = rowTop (scoreRow x0 x1 b d) := by
  rw [val_main_v19_apply, val_main_v18_apply]
  show max (Ideal.ofBits .f32 0xFF800000#32) (val_main_v17 (F := Ideal) x0 x1 (ix2 b d)) = _
  rw [max_negInf]
  unfold val_main_v17
  have hr : S8x4096x512.Reduces [(2 : Fin 3)] S8x4096 := by decide
  rw [Host.reduce_eq_fold_single FloatOps.maximumf _ _ reducesTo_S8x4096x512_S8x4096_d2 hr h_S_ (ix2 b d)]
  exact congrArg (fun f => (Finset.univ : Finset (Fin 512)).fold max (Ideal.ofBits .f32 0xFF800000#32) f)
    (funext fun k => (congrArg (val_main_v16 (F := Ideal) x0 x1) (lift_question hr b d k)).trans (scores_apply x0 x1 b d _))

/-- The shifted exponentials. -/
theorem exp_apply (b : Fin 8) (d : Fin 4096) (q : Fin 512) :
    val_main_v23 (F := Ideal) x0 x1 (ix3 b d q)
      = Ideal.exp (scoreRow x0 x1 b d q - rowTop (scoreRow x0 x1 b d)) := by
  have hidx : idx_main_v20 (idx_main_v21 (ix3 b d q)) = ix2 b d :=
    funext fun a => Fin.ext (by match a with | ⟨0, _⟩ => rfl | ⟨1, _⟩ => rfl)
  rw [val_main_v23_apply, val_main_v22_apply, val_main_v21_apply, val_main_v20_apply, hidx, top_apply, scores_apply]
  rfl

/-- The weights: the softmax of the row of scores. -/
theorem weights_apply (b : Fin 8) (d : Fin 4096) (q : Fin 512) :
    val_main_v27 (F := Ideal) x0 x1 (ix3 b d q) = softmaxRow (scoreRow x0 x1 b d) q := by
  have hidx : idx_main_v25 (idx_main_v26 (ix3 b d q)) = ix2 b d :=
    funext fun a => Fin.ext (by match a with | ⟨0, _⟩ => rfl | ⟨1, _⟩ => rfl)
  have hk : ∀ k : Fin 512, idx_main_v24 (ix2 b d) k = ix3 b d k := fun k =>
    funext fun a => Fin.ext (by match a with | ⟨0, _⟩ => rfl | ⟨1, _⟩ => rfl | ⟨2, _⟩ => rfl)
  rw [val_main_v27_apply, val_main_v26_apply, val_main_v25_apply, hidx, val_main_v24_apply, exp_apply]
  simp only [hk, exp_apply]
  show Ideal.div _ (Ideal.ofBits .f32 0x00000000#32 + _) = _
  rw [Ideal.ofBits_zero_f32, zero_add]
  rfl

/-- THE RESULT at `(b, d, h)`: document row `(b, d)` attending to the question rows of batch `b`. -/
theorem result_apply (b : Fin 8) (d : Fin 4096) (h : Fin 1024) :
    val_main_v29 (F := Ideal) x0 x1 (ix3 b d h) = attend (fun k => x1 (ix3 b d k)) (fun q k => x0 (ix3 b q k)) h := by
  rw [val_main_v29_apply, val_main_v28_apply]
  unfold attend
  show (∑ k : Fin 512, _) + x1 (ix3 b d h) = _
  refine congrArg (· + x1 (ix3 b d h)) (Finset.sum_congr rfl fun k _ => ?_)
  have el : lidx_main_v28 (ix3 b d h) k = ix3 b d k :=
    funext fun a => Fin.ext (by match a with | ⟨0, _⟩ => rfl | ⟨1, _⟩ => rfl | ⟨2, _⟩ => rfl)
  have er : ridx_main_v28 (ix3 b d h) k = ix3 b k h :=
    funext fun a => Fin.ext (by match a with | ⟨0, _⟩ => rfl | ⟨1, _⟩ => rfl | ⟨2, _⟩ => rfl)
  rw [el, er, weights_apply]

/-- The reference's result array is the attention of its two argument arrays. -/
theorem result_eq : val_main_v29 (F := Ideal) x0 x1 = attention x0 x1 := by
  funext i
  obtain ⟨b, d, h, rfl⟩ : ∃ (b : Fin 8) (d : Fin 4096) (h : Fin 1024), i = ix3 b d h := ⟨i 0, i 1, i 2, eq_ix3 i⟩
  exact result_apply x0 x1 b d h

end Cert.ReferenceIdeal.Attn

end
-- ==== Proof.lean ====
/-
  Cosine-similarity cross attention with a residual: a tiled kernel against its batched reference, over the extended reals.

  For questions `Q : [8, 512, 1024]` and documents `D : [8, 4096, 1024]` both programs compute, for every document row
  `(b, d)`: the rows of `Q` and `D` scaled to unit length (the length clamped from below by the f32 word of 1e-8), the
  cosines of the document row with the 512 question rows of its batch, the softmax of these scores (the row maximum
  taken from −∞), the weighted sum of the unscaled question rows, plus the document row.  The kernel does this for 512
  document rows at a time, one grid point per (batch, row block), with all question rows of the batch in one block, so
  no sum or maximum is ever split: the two programs spell the SAME expression, and no law of arithmetic beyond
  `max (−∞) y = y` and `0 + s = s` joins them.  In particular the proof never uses that the inputs are finite.

  * `CrossAttention`: the function both sides compute, row by row (`attend`) and for the whole arrays (`attention`).
  * `KernelBody`: the body's stored value at an index is `attend` of the staged rows (the two matrix products read as
    sums, the lane reductions as row sums and a row maximum).
  * `KernelArray`: the block each grid point writes back is a block of `attention`, and the blocks tile the result.
  * `Reference`: the reference's operations read one by one at an index give `attention` as well.

  No operation of the kernel is rewritten for its reading over the extended reals: its idealization is its own text read
  there, and the conjunct relating the two is trivial.
-/
import proofs.«155963_j88682484727827_1_alg».proof.Defs
import proofs.«155963_j88682484727827_1_alg».proof.Proof.Gen.Kernel
import proofs.«155963_j88682484727827_1_alg».proof.Proof.Gen.Kernel.Skeleton
import proofs.«155963_j88682484727827_1_alg».proof.Proof.Gen.Kernel.Launch
import proofs.«155963_j88682484727827_1_alg».proof.Proof.Gen.Kernel.Points
import proofs.«155963_j88682484727827_1_alg».proof.Proof.Gen.Kernel.Frame
import proofs.«155963_j88682484727827_1_alg».proof.Proof.Gen.KernelIdeal
import proofs.«155963_j88682484727827_1_alg».proof.Proof.Gen.KernelIdeal.Skeleton
import proofs.«155963_j88682484727827_1_alg».proof.Proof.Gen.KernelIdeal.Launch
import proofs.«155963_j88682484727827_1_alg».proof.Proof.Gen.KernelIdeal.Points
import proofs.«155963_j88682484727827_1_alg».proof.Proof.Gen.KernelIdeal.Frame
import proofs.«155963_j88682484727827_1_alg».proof.Proof.Gen.ReferenceIdeal
import proofs.«155963_j88682484727827_1_alg».proof.Proof.Gen.Pre_finite_inputs
import proofs.«155963_j88682484727827_1_alg».proof.Proof.Gen.KernelIdeal.Value
import proofs.«155963_j88682484727827_1_alg».proof.Proof.Gen.ReferenceIdeal.Run
import proofs.«155963_j88682484727827_1_alg».proof.Proof.Gen.ReferenceIdeal.Read
import proofs.«155963_j88682484727827_1_alg».proof.Proof.KernelArray
import proofs.«155963_j88682484727827_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the attention of its arguments (the blocks tile it),
    and the reference's at the attention of its arguments; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Attn.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
